-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v5) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1024x64x512 : Shape := ⟨3, ![1024, 64, 512]⟩
abbrev S1024x64 : Shape := ⟨2, ![1024, 64]⟩
abbrev S512x512 : Shape := ⟨2, ![512, 512]⟩
abbrev S_ : Shape := ⟨0, ![]⟩

class Facts : Prop where
  bcast_S_S1024x64x512 : S_.BroadcastsInDim S1024x64x512 (![] : Fin 0 → Fin S1024x64x512.rank)
  reducesTo_S1024x64x512_S_d0_1_2 : S1024x64x512.ReducesTo [0, 1, 2] S_
  h_S_ : 0 < S_.numel
  bcast_S_S1024x64 : S_.BroadcastsInDim S1024x64 (![] : Fin 0 → Fin S1024x64.rank)
  reducesTo_S1024x64_S_d0_1 : S1024x64.ReducesTo [0, 1] S_
  bcast_S_S512x512 : S_.BroadcastsInDim S512x512 (![] : Fin 0 → Fin S512x512.rank)
  reducesTo_S512x512_S_d0_1 : S512x512.ReducesTo [0, 1] S_

variable [Facts]

def fn {F : FTy → Type} [FloatOps F] (main_arg0 : FVec F S1024x64x512 .f32) (main_arg1 : FVec F S1024x64 .f32) (main_arg2 : FVec F S512x512 .f32) : IVec S_ 1 :=
  let main_v0 : FVec F S1024x64x512 .f32 := Host.absf main_arg0
  let main_cst : FVec F S_ .f32 := constant S_ .f32 0x7F800000#32
  let main_v1 : FVec F S1024x64x512 .f32 := broadcastInDim S1024x64x512 ![] bcast_S_S1024x64x512 main_cst
  let main_v2 : IVec S1024x64x512 1 := cmpf .olt main_v0 main_v1
  let main_c : IVec S_ 1 := constantI S_ 1 1#1
  let main_v3 : IVec S_ 1 := (fun x v => Host.reduce IntOp.andi x v reducesTo_S1024x64x512_S_d0_1_2 h_S_) main_v2 main_c
  let main_v4 : FVec F S1024x64 .f32 := Host.absf main_arg1
  let main_cst_0 : FVec F S_ .f32 := constant S_ .f32 0x7F800000#32
  let main_v5 : FVec F S1024x64 .f32 := broadcastInDim S1024x64 ![] bcast_S_S1024x64 main_cst_0
  let main_v6 : IVec S1024x64 1 := cmpf .olt main_v4 main_v5
  let main_c_1 : IVec S_ 1 := constantI S_ 1 1#1
  let main_v7 : IVec S_ 1 := (fun x v => Host.reduce IntOp.andi x v reducesTo_S1024x64_S_d0_1 h_S_) main_v6 main_c_1
  let main_v8 : IVec S_ 1 := andi main_v3 main_v7
  let main_v9 : FVec F S512x512 .f32 := Host.absf main_arg2
  let main_cst_2 : FVec F S_ .f32 := constant S_ .f32 0x7F800000#32
  let main_v10 : FVec F S512x512 .f32 := broadcastInDim S512x512 ![] bcast_S_S512x512 main_cst_2
  let main_v11 : IVec S512x512 1 := cmpf .olt main_v9 main_v10
  let main_c_3 : IVec S_ 1 := constantI S_ 1 1#1
  let main_v12 : IVec S_ 1 := (fun x v => Host.reduce IntOp.andi x v reducesTo_S512x512_S_d0_1 h_S_) main_v11 main_c_3
  let main_v13 : IVec S_ 1 := andi main_v8 main_v12
  main_v13
-- ==== Kernel.lean ====
abbrev S1024x64x512 : Shape := ⟨3, ![1024, 64, 512]⟩
abbrev S1024x64 : Shape := ⟨2, ![1024, 64]⟩
abbrev S512x512 : Shape := ⟨2, ![512, 512]⟩
abbrev S32x64x512 : Shape := ⟨3, ![32, 64, 512]⟩
abbrev S32x64 : Shape := ⟨2, ![32, 64]⟩
abbrev S2048x512 : Shape := ⟨2, ![2048, 512]⟩
abbrev S32x64x64 : Shape := ⟨3, ![32, 64, 64]⟩
abbrev S32x1x64 : Shape := ⟨3, ![32, 1, 64]⟩

abbrev nBuf : Space → Nat
  | .hbm => 5
  | .vmem => 7
  | .smem => 0
  | _ => 0

abbrev bufTy : (tb : Table) → Fin (tcTables nBuf tb) → BufTy
  | .hbm, ⟨0, _⟩ => ⟨S1024x64x512, .f32⟩
  | .hbm, ⟨1, _⟩ => ⟨S1024x64, .f32⟩
  | .hbm, ⟨2, _⟩ => ⟨S512x512, .f32⟩
  | .hbm, ⟨3, _⟩ => ⟨S512x512, .bf16⟩
  | .hbm, ⟨4, _⟩ => ⟨S1024x64x512, .f32⟩
  | .local _ .vmem, ⟨0, _⟩ => ⟨S32x64x512, .f32⟩
  | .local _ .vmem, ⟨1, _⟩ => ⟨S32x64x512, .f32⟩
  | .local _ .vmem, ⟨2, _⟩ => ⟨S32x64, .f32⟩
  | .local _ .vmem, ⟨3, _⟩ => ⟨S32x64, .f32⟩
  | .local _ .vmem, ⟨4, _⟩ => ⟨S512x512, .bf16⟩
  | .local _ .vmem, ⟨5, _⟩ => ⟨S32x64x512, .f32⟩
  | .local _ .vmem, ⟨6, _⟩ => ⟨S32x64x512, .f32⟩
  | _, _ => ⟨S1024x64x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![32], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S32x64x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S32x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S512x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S32x64x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  bitsLt_bf16_f32 : FTy.bits .bf16 < FTy.bits .f32
  inb_S32x64x512_S32x64x512_0_0_0 : ∀ a, (![0, 0, 0] : Fin 3 → Nat) a + S32x64x512.size a ≤ S32x64x512.size a
  h_S32x64x512 : 0 < S32x64x512.numel
  shapeCasts_S32x64x512_S2048x512 : S32x64x512.ShapeCasts S2048x512
  inb_S512x512_S512x512_0_0 : ∀ a, (![0, 0] : Fin 2 → Nat) a + S512x512.size a ≤ S512x512.size a
  h_S512x512 : 0 < S512x512.numel
  shapeCasts_S512x512_S512x512 : S512x512.ShapeCasts S512x512
  shapeCasts_S2048x512_S32x64x512 : S2048x512.ShapeCasts S32x64x512
  inb_S32x64_S32x64_0_0 : ∀ a, (![0, 0] : Fin 2 → Nat) a + S32x64.size a ≤ S32x64.size a
  h_S32x64 : 0 < S32x64.numel
  shapeCasts_S32x64_S32x1x64 : S32x64.ShapeCasts S32x1x64
  broadcasts_S32x1x64_S32x64x64 : S32x1x64.Broadcasts S32x64x64
  dot_S2048x512_S512x512_S2048x512_1_0_0_1_n_n_wf : DotDims.WF S2048x512 S512x512 S2048x512 [1] [0] [0] [1] [] []
  dot_S32x64x512_S32x64x512_S32x64x64_2_2_1_1_0_0_wf : DotDims.WF S32x64x512 S32x64x512 S32x64x64 [2] [2] [1] [1] [0] [0]
  dot_S32x64x64_S32x64x512_S32x64x512_2_1_1_2_0_0_wf : DotDims.WF S32x64x64 S32x64x512 S32x64x512 [2] [1] [1] [2] [0] [0]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S32x64x512.size a ≤ S1024x64x512.size a
  hwx0_0 : ∀ i : grid0.Coords, EltTy.bits .f32 = 32 ∨ (Rect.block (s := S1024x64x512) S32x64x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S32x64.size a ≤ S1024x64.size a
  hwx0_1 : ∀ i : grid0.Coords, EltTy.bits .f32 = 32 ∨ (Rect.block (s := S1024x64) S32x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S512x512.size a ≤ S512x512.size a
  hwx0_2 : ∀ i : grid0.Coords, EltTy.bits .bf16 = 32 ∨ (Rect.block (s := S512x512) S512x512.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S32x64x512.size a ≤ S1024x64x512.size a
  hwx0_3 : ∀ i : grid0.Coords, EltTy.bits .f32 = 32 ∨ (Rect.block (s := S1024x64x512) S32x64x512.size (cc0_transform_3 i) (hinb0_3 i)).WholeWords (EltTy.packing .f32)

variable [Facts₀]

def dot_S2048x512_S512x512_S2048x512_1_0_0_1_n_n : DotDims S2048x512 S512x512 S2048x512 where
  lhsContracting := [1]
  rhsContracting := [0]
  lhsNonContracting := [0]
  rhsNonContracting := [1]
  lhsBatch := []
  rhsBatch := []
  wf := dot_S2048x512_S512x512_S2048x512_1_0_0_1_n_n_wf
def dot_S32x64x512_S32x64x512_S32x64x64_2_2_1_1_0_0 : DotDims S32x64x512 S32x64x512 S32x64x64 where
  lhsContracting := [2]
  rhsContracting := [2]
  lhsNonContracting := [1]
  rhsNonContracting := [1]
  lhsBatch := [0]
  rhsBatch := [0]
  wf := dot_S32x64x512_S32x64x512_S32x64x64_2_2_1_1_0_0_wf
def dot_S32x64x64_S32x64x512_S32x64x512_2_1_1_2_0_0 : DotDims S32x64x64 S32x64x512 S32x64x512 where
  lhsContracting := [2]
  rhsContracting := [1]
  lhsNonContracting := [1]
  rhsNonContracting := [2]
  lhsBatch := [0]
  rhsBatch := [0]
  wf := dot_S32x64x64_S32x64x512_S32x64x512_2_1_1_2_0_0_wf

abbrev win0_0 : Pipeline.Window sig grid0 :=
  Pipeline.Window.ofSpec (Memref.whole main_arg0) S32x64x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S32x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S512x512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S32x64x512.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S1024x64x512 : Shape := ⟨3, ![1024, 64, 512]⟩
abbrev S1024x64 : Shape := ⟨2, ![1024, 64]⟩
abbrev S512x512 : Shape := ⟨2, ![512, 512]⟩
abbrev S1024x64x64 : Shape := ⟨3, ![1024, 64, 64]⟩
abbrev S1024x1x64 : Shape := ⟨3, ![1024, 1, 64]⟩

abbrev nBuf : Space → Nat
  | .hbm => 9
  | .vmem => 0
  | .smem => 0
  | _ => 0

abbrev bufTy : (tb : Table) → Fin (tcTables nBuf tb) → BufTy
  | .hbm, ⟨0, _⟩ => ⟨S1024x64x512, .f32⟩
  | .hbm, ⟨1, _⟩ => ⟨S1024x64, .f32⟩
  | .hbm, ⟨2, _⟩ => ⟨S512x512, .f32⟩
  | .hbm, ⟨3, _⟩ => ⟨S1024x64x512, .f32⟩
  | .hbm, ⟨4, _⟩ => ⟨S1024x64x64, .f32⟩
  | .hbm, ⟨5, _⟩ => ⟨S1024x1x64, .f32⟩
  | .hbm, ⟨6, _⟩ => ⟨S1024x64x64, .f32⟩
  | .hbm, ⟨7, _⟩ => ⟨S1024x64x64, .f32⟩
  | .hbm, ⟨8, _⟩ => ⟨S1024x64x512, .f32⟩
  | _, _ => ⟨S1024x64x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]

class Facts₀ : Prop where
  bcast_S1024x64_S1024x1x64_0_2 : S1024x64.BroadcastsInDim S1024x1x64 (![0, 2] : Fin 2 → Fin S1024x1x64.rank)
  bcast_S1024x1x64_S1024x64x64_0_1_2 : S1024x1x64.BroadcastsInDim S1024x64x64 (![0, 1, 2] : Fin 3 → Fin S1024x64x64.rank)
  dot_S1024x64x512_S512x512_S1024x64x512_2_0_01_1_n_n_wf : DotDims.WF S1024x64x512 S512x512 S1024x64x512 [2] [0] [0, 1] [1] [] []
  dot_S1024x64x512_S1024x64x512_S1024x64x64_2_2_1_1_0_0_wf : DotDims.WF S1024x64x512 S1024x64x512 S1024x64x64 [2] [2] [1] [1] [0] [0]
  dot_S1024x64x64_S1024x64x512_S1024x64x512_2_1_1_2_0_0_wf : DotDims.WF S1024x64x64 S1024x64x512 S1024x64x512 [2] [1] [1] [2] [0] [0]

variable [Facts₀]

def dot_S1024x64x512_S512x512_S1024x64x512_2_0_01_1_n_n : DotDims S1024x64x512 S512x512 S1024x64x512 where
  lhsContracting := [2]
  rhsContracting := [0]
  lhsNonContracting := [0, 1]
  rhsNonContracting := [1]
  lhsBatch := []
  rhsBatch := []
  wf := dot_S1024x64x512_S512x512_S1024x64x512_2_0_01_1_n_n_wf
def dot_S1024x64x512_S1024x64x512_S1024x64x64_2_2_1_1_0_0 : DotDims S1024x64x512 S1024x64x512 S1024x64x64 where
  lhsContracting := [2]
  rhsContracting := [2]
  lhsNonContracting := [1]
  rhsNonContracting := [1]
  lhsBatch := [0]
  rhsBatch := [0]
  wf := dot_S1024x64x512_S1024x64x512_S1024x64x64_2_2_1_1_0_0_wf
def dot_S1024x64x64_S1024x64x512_S1024x64x512_2_1_1_2_0_0 : DotDims S1024x64x64 S1024x64x512 S1024x64x512 where
  lhsContracting := [2]
  rhsContracting := [1]
  lhsNonContracting := [1]
  rhsNonContracting := [2]
  lhsBatch := [0]
  rhsBatch := [0]
  wf := dot_S1024x64x64_S1024x64x512_S1024x64x512_2_1_1_2_0_0_wf

class Facts : Prop extends Facts₀ where

variable [Facts]
-- ==== Proof.SelfAttention.lean ====
/-
  The function both programs compute, stated once over the extended reals with no program in sight.

  For ONE sequence — a 64 × 512 matrix `X`, a mask `M` over its 64 key positions and the 512 × 512 weight `W` —
  let `P = X · W` (`proj`: query, key and value are the same projection). The un-normalised scores are
  `P · Pᵀ`, each scaled by the mask of its KEY position, and the output is the scaled scores times `P` again:

      out[j, d] = ∑ f, ((∑ e, P[j, e] · P[f, e]) · M[f]) · P[f, d]         (`attend`).

  Over the whole arrays (1024 sequences) the result at `(b, j, d)` is `attend` of sequence `b`'s slices
  (`wholeArray`). Only sums and products of extended reals occur, each in the one order written here, so no law
  of arithmetic — and no finiteness of the inputs — is needed to compare the two programs against it.
-/
import Idealize.ShloMosaic.PureOps.Ideal
import Idealize.ShloMosaic.Lib.ValueIdx

noncomputable section

namespace Cert.SelfAttention

open Idealize.ShloMosaic Idealize.ShloMosaic.ValueIdx

/-- Entry `(s, e)` of the shared projection `X · W` of one sequence. -/
def proj (X : Fin 64 → Fin 512 → EReal) (W : Fin 512 → Fin 512 → EReal) (s : Fin 64) (e : Fin 512) : EReal :=
  ∑ k : Fin 512, X s k * W k e

/-- Entry `(j, d)` of one sequence's output: the score of query `j` against each key `f` (the inner product of the
    two projected rows), times the mask at `f`, times the projected row `f` at column `d`, summed over `f`. -/
def attend (X : Fin 64 → Fin 512 → EReal) (M : Fin 64 → EReal) (W : Fin 512 → Fin 512 → EReal) (j : Fin 64) (d : Fin 512) : EReal :=
  ∑ f : Fin 64, ((∑ e : Fin 512, proj X W j e * proj X W f e) * M f) * proj X W f d

/-- The whole result array: at `(b, j, d)`, `attend` of sequence `b`'s rows of `x`, its row of the mask, and `w`. -/
def wholeArray (x : (⟨3, ![1024, 64, 512]⟩ : Shape).Idx → EReal) (mk : (⟨2, ![1024, 64]⟩ : Shape).Idx → EReal)
    (w : (⟨2, ![512, 512]⟩ : Shape).Idx → EReal) : (⟨3, ![1024, 64, 512]⟩ : Shape).Idx → EReal :=
  fun i => attend (fun s k => x (ix3 (i 0) s k)) (fun f => mk (ix2 (i 0) f)) (fun k e => w (ix2 k e)) (i 1) (i 2)

end Cert.SelfAttention

end
-- ==== Proof.ReferenceValue.lean ====
/-
  The reference computes `SelfAttention.wholeArray`.

  Its six host operations are three `dot_general`s, two broadcasts of the mask and one product. Read at an index
  `(b, j, d)` (the generated read-at-an-index lemmas), the last `dot_general` is a sum over the key position `f` of
  (scores · mask) at `(b, j, f)` times the projection at `(b, f, d)`; the scores are a sum over `e` of two
  projected entries; the projection is a sum over `k` of `x · W`; the two broadcasts read the mask at `(b, f)`.
  What remains is to see that each composed operand index is the triple or pair of coordinates the specification
  names, which is a computation coordinate by coordinate.
-/
import proofs.«153391_j11879879543805_2_alg».proof.Proof.Gen.ReferenceIdeal.Read
import proofs.«153391_j11879879543805_2_alg».proof.Proof.SelfAttention

noncomputable section

namespace Cert.ReferenceIdeal.RefValue

open Cert.ReferenceIdeal Cert.ReferenceIdeal.Read Idealize.ShloMosaic Idealize.ShloMosaic.ValueIdx Cert.SelfAttention

/-- The reference's result, at the ideal values, is `wholeArray` of its three arguments. -/
theorem result_eq (x0 : (⟨S1024x64x512, .f32⟩ : BufTy).Contents (Elt Ideal)) (x1 : (⟨S1024x64, .f32⟩ : BufTy).Contents (Elt Ideal))
    (x2 : (⟨S512x512, .f32⟩ : BufTy).Contents (Elt Ideal)) :
    val_main_v5 (F := Ideal) x0 x1 x2 = wholeArray x0 x1 x2 := by
  funext i
  -- the query row's projection index, the key row's, the mask's and the value column's, as coordinates
  have hq : ∀ (f : Fin 64) (e k : Fin 512), lidx_main_v0 (lidx_main_v1 (lidx_main_v5 i f) e) k = ix3 (i 0) (i 1) k :=
    fun f e k => funext fun a => by match a with | ⟨0, _⟩ => rfl | ⟨1, _⟩ => rfl | ⟨2, _⟩ => rfl
  have hqw : ∀ (f : Fin 64) (e k : Fin 512), ridx_main_v0 (lidx_main_v1 (lidx_main_v5 i f) e) k = ix2 k e :=
    fun f e k => funext fun a => by match a with | ⟨0, _⟩ => rfl | ⟨1, _⟩ => rfl
  have hk : ∀ (f : Fin 64) (e k : Fin 512), lidx_main_v0 (ridx_main_v1 (lidx_main_v5 i f) e) k = ix3 (i 0) f k :=
    fun f e k => funext fun a => by match a with | ⟨0, _⟩ => rfl | ⟨1, _⟩ => rfl | ⟨2, _⟩ => rfl
  have hkw : ∀ (f : Fin 64) (e k : Fin 512), ridx_main_v0 (ridx_main_v1 (lidx_main_v5 i f) e) k = ix2 k e :=
    fun f e k => funext fun a => by match a with | ⟨0, _⟩ => rfl | ⟨1, _⟩ => rfl
  have hm : ∀ f : Fin 64, idx_main_v2 (idx_main_v3 (lidx_main_v5 i f)) = ix2 (i 0) f :=
    fun f => funext fun a => by match a with | ⟨0, _⟩ => rfl | ⟨1, _⟩ => rfl
  have hv : ∀ (f : Fin 64) (k : Fin 512), lidx_main_v0 (ridx_main_v5 i f) k = ix3 (i 0) f k :=
    fun f k => funext fun a => by match a with | ⟨0, _⟩ => rfl | ⟨1, _⟩ => rfl | ⟨2, _⟩ => rfl
  have hvw : ∀ (f : Fin 64) (k : Fin 512), ridx_main_v0 (ridx_main_v5 i f) k = ix2 k (i 2) :=
    fun f k => funext fun a => by match a with | ⟨0, _⟩ => rfl | ⟨1, _⟩ => rfl
  rw [val_main_v5_apply]
  simp only [val_main_v4_apply, val_main_v1_apply, val_main_v3_apply, val_main_v2_apply, val_main_v0_apply,
    Ideal.mulf_def, hq, hqw, hk, hkw, hm, hv, hvw]
  rfl

end Cert.ReferenceIdeal.RefValue

end
-- ==== Proof.BodyProducts.lean ====
/-
  The kernel body's three matrix products, each read at one output index as a plain sum.

  The body multiplies (1) its 32 sequences, flattened to 2048 rows, by the weight: `[2048, 512] × [512, 512]`, contracting the
  row's 512 entries; (2) per sequence, the projected rows with themselves: `[32, 64, 512] × [32, 64, 512] → [32, 64, 64]`,
  the sequence axis a batch axis, contracting the 512 columns; (3) per sequence, the scaled scores with the projected rows:
  `[32, 64, 64] × [32, 64, 512] → [32, 64, 512]`, contracting the 64 key positions. Each accumulates into a zero splat, so
  at the ideal values its entry is the sum, over the one contracted axis, of the products of the two operands' entries.

  Which entries: from the product's dimension numbers, coordinate by coordinate — a batch axis and a free axis of an
  operand read the output index, its contracted axis reads the summation index. The lemmas `lhs…` / `rhs…` compute
  each coordinate; `lidx…` / `ridx…` collect them; `matmul…_apply` re-indexes the sum from the one-axis contraction
  shape to `Fin 512` or `Fin 64`.
-/
import proofs.«153391_j11879879543805_2_alg».proof.Proof.Gen.KernelIdeal.Skeleton
import proofs.«153391_j11879879543805_2_alg».proof.Proof.SelfAttention
import Idealize.ShloMosaic.Lib.Pipeline.Value
import Idealize.ShloMosaic.Lib.ValueIdx
import Idealize.ShloMosaic.PureOps.Ideal.Laws

noncomputable section

namespace Cert.KernelIdeal.BodyValue

open Cert.KernelIdeal Cert.KernelIdeal.Gen Idealize.ShloMosaic Idealize.ShloMosaic.ValueIdx Cert.SelfAttention

/-! ## The flattened projection `[2048, 512] × [512, 512]` -/

theorem lhsP_0 (i : S2048x512.Idx) (q : dot_S2048x512_S512x512_S2048x512_1_0_0_1_n_n.contr.Idx) :
    (dot_S2048x512_S512x512_S2048x512_1_0_0_1_n_n.lhsIdx i q 0).val = (i 0).val := by
  unfold DotDims.lhsIdx
  rw [dif_neg (show ¬(0 : Fin S2048x512.rank) ∈ dot_S2048x512_S512x512_S2048x512_1_0_0_1_n_n.lhsBatch by decide), dif_pos (show (0 : Fin S2048x512.rank) ∈ dot_S2048x512_S512x512_S2048x512_1_0_0_1_n_n.lhsNonContracting by decide)]
  rfl
theorem lhsP_1 (i : S2048x512.Idx) (q : dot_S2048x512_S512x512_S2048x512_1_0_0_1_n_n.contr.Idx) :
    (dot_S2048x512_S512x512_S2048x512_1_0_0_1_n_n.lhsIdx i q 1).val = (q ⟨0, by decide⟩).val :=
  dot_S2048x512_S512x512_S2048x512_1_0_0_1_n_n.lhsIdx_val_of_single rfl i q
theorem rhsP_0 (i : S2048x512.Idx) (q : dot_S2048x512_S512x512_S2048x512_1_0_0_1_n_n.contr.Idx) :
    (dot_S2048x512_S512x512_S2048x512_1_0_0_1_n_n.rhsIdx i q 0).val = (q ⟨0, by decide⟩).val :=
  dot_S2048x512_S512x512_S2048x512_1_0_0_1_n_n.rhsIdx_val_of_single rfl i q
theorem rhsP_1 (i : S2048x512.Idx) (q : dot_S2048x512_S512x512_S2048x512_1_0_0_1_n_n.contr.Idx) :
    (dot_S2048x512_S512x512_S2048x512_1_0_0_1_n_n.rhsIdx i q 1).val = (i 1).val := by
  unfold DotDims.rhsIdx
  rw [dif_neg (show ¬(1 : Fin S512x512.rank) ∈ dot_S2048x512_S512x512_S2048x512_1_0_0_1_n_n.rhsBatch by decide), dif_pos (show (1 : Fin S512x512.rank) ∈ dot_S2048x512_S512x512_S2048x512_1_0_0_1_n_n.rhsNonContracting by decide)]
  rfl

/-- Row `i 0` of the left operand at the summation index. -/
abbrev lidxP (i : S2048x512.Idx) (k : Fin 512) : S2048x512.Idx := fun a => match a with
  | ⟨0, _⟩ => ⟨(i 0).val, (i 0).isLt⟩
  | ⟨1, _⟩ => ⟨k.val, k.isLt⟩
/-- The weight at the summation index and column `i 1`. -/
abbrev ridxP (i : S2048x512.Idx) (k : Fin 512) : S512x512.Idx := fun a => match a with
  | ⟨0, _⟩ => ⟨k.val, k.isLt⟩
  | ⟨1, _⟩ => ⟨(i 1).val, (i 1).isLt⟩

/-- The flat product into the zero accumulator, at an index, is the sum over the 512 contracted entries. -/
theorem matmulP_apply (l : FVec Ideal S2048x512 .bf16) (r : FVec Ideal S512x512 .bf16) (i : S2048x512.Idx) :
    matmul dot_S2048x512_S512x512_S2048x512_1_0_0_1_n_n none l r (constant (F := Ideal) S2048x512 .f32 0x00000000#32) i
      = ∑ k : Fin 512, l (lidxP i k) * r (ridxP i k) := by
  refine (Ideal.matmul_constant_zero_apply dot_S2048x512_S512x512_S2048x512_1_0_0_1_n_n none l r i).trans ?_
  rw [← Equiv.sum_comp (ValueIdx.contrEquiv1 dot_S2048x512_S512x512_S2048x512_1_0_0_1_n_n 512 rfl rfl).symm]
  refine Finset.sum_congr rfl fun k _ => ?_
  have hk := ValueIdx.contrEquiv1_symm_val dot_S2048x512_S512x512_S2048x512_1_0_0_1_n_n 512 rfl rfl k
  have el : dot_S2048x512_S512x512_S2048x512_1_0_0_1_n_n.lhsIdx i ((ValueIdx.contrEquiv1 dot_S2048x512_S512x512_S2048x512_1_0_0_1_n_n 512 rfl rfl).symm k) = lidxP i k := funext fun a => Fin.ext (by
    match a with
    | ⟨0, _⟩ => exact lhsP_0 _ _
    | ⟨1, _⟩ => exact (lhsP_1 _ _).trans hk)
  have er : dot_S2048x512_S512x512_S2048x512_1_0_0_1_n_n.rhsIdx i ((ValueIdx.contrEquiv1 dot_S2048x512_S512x512_S2048x512_1_0_0_1_n_n 512 rfl rfl).symm k) = ridxP i k := funext fun a => Fin.ext (by
    match a with
    | ⟨0, _⟩ => exact (rhsP_0 _ _).trans hk
    | ⟨1, _⟩ => exact rhsP_1 _ _)
  rw [el, er]

/-! ## The scores `[32, 64, 512] × [32, 64, 512] → [32, 64, 64]`, one product per sequence -/

theorem lhsS_0 (i : S32x64x64.Idx) (q : dot_S32x64x512_S32x64x512_S32x64x64_2_2_1_1_0_0.contr.Idx) :
    (dot_S32x64x512_S32x64x512_S32x64x64_2_2_1_1_0_0.lhsIdx i q 0).val = (i 0).val := by
  unfold DotDims.lhsIdx
  rw [dif_pos (show (0 : Fin S32x64x512.rank) ∈ dot_S32x64x512_S32x64x512_S32x64x64_2_2_1_1_0_0.lhsBatch by decide)]
  rfl
theorem lhsS_1 (i : S32x64x64.Idx) (q : dot_S32x64x512_S32x64x512_S32x64x64_2_2_1_1_0_0.contr.Idx) :
    (dot_S32x64x512_S32x64x512_S32x64x64_2_2_1_1_0_0.lhsIdx i q 1).val = (i 1).val := by
  unfold DotDims.lhsIdx
  rw [dif_neg (show ¬(1 : Fin S32x64x512.rank) ∈ dot_S32x64x512_S32x64x512_S32x64x64_2_2_1_1_0_0.lhsBatch by decide), dif_pos (show (1 : Fin S32x64x512.rank) ∈ dot_S32x64x512_S32x64x512_S32x64x64_2_2_1_1_0_0.lhsNonContracting by decide)]
  rfl
theorem lhsS_2 (i : S32x64x64.Idx) (q : dot_S32x64x512_S32x64x512_S32x64x64_2_2_1_1_0_0.contr.Idx) :
    (dot_S32x64x512_S32x64x512_S32x64x64_2_2_1_1_0_0.lhsIdx i q 2).val = (q ⟨0, by decide⟩).val :=
  dot_S32x64x512_S32x64x512_S32x64x64_2_2_1_1_0_0.lhsIdx_val_of_single rfl i q
theorem rhsS_0 (i : S32x64x64.Idx) (q : dot_S32x64x512_S32x64x512_S32x64x64_2_2_1_1_0_0.contr.Idx) :
    (dot_S32x64x512_S32x64x512_S32x64x64_2_2_1_1_0_0.rhsIdx i q 0).val = (i 0).val := by
  unfold DotDims.rhsIdx
  rw [dif_pos (show (0 : Fin S32x64x512.rank) ∈ dot_S32x64x512_S32x64x512_S32x64x64_2_2_1_1_0_0.rhsBatch by decide)]
  rfl
theorem rhsS_1 (i : S32x64x64.Idx) (q : dot_S32x64x512_S32x64x512_S32x64x64_2_2_1_1_0_0.contr.Idx) :
    (dot_S32x64x512_S32x64x512_S32x64x64_2_2_1_1_0_0.rhsIdx i q 1).val = (i 2).val := by
  unfold DotDims.rhsIdx
  rw [dif_neg (show ¬(1 : Fin S32x64x512.rank) ∈ dot_S32x64x512_S32x64x512_S32x64x64_2_2_1_1_0_0.rhsBatch by decide), dif_pos (show (1 : Fin S32x64x512.rank) ∈ dot_S32x64x512_S32x64x512_S32x64x64_2_2_1_1_0_0.rhsNonContracting by decide)]
  rfl
theorem rhsS_2 (i : S32x64x64.Idx) (q : dot_S32x64x512_S32x64x512_S32x64x64_2_2_1_1_0_0.contr.Idx) :
    (dot_S32x64x512_S32x64x512_S32x64x64_2_2_1_1_0_0.rhsIdx i q 2).val = (q ⟨0, by decide⟩).val :=
  dot_S32x64x512_S32x64x512_S32x64x64_2_2_1_1_0_0.rhsIdx_val_of_single rfl i q

/-- The query row `(i 0, i 1)` at the summation index. -/
abbrev lidxS (i : S32x64x64.Idx) (k : Fin 512) : S32x64x512.Idx := fun a => match a with
  | ⟨0, _⟩ => ⟨(i 0).val, (i 0).isLt⟩
  | ⟨1, _⟩ => ⟨(i 1).val, (i 1).isLt⟩
  | ⟨2, _⟩ => ⟨k.val, k.isLt⟩
/-- The key row `(i 0, i 2)` at the summation index. -/
abbrev ridxS (i : S32x64x64.Idx) (k : Fin 512) : S32x64x512.Idx := fun a => match a with
  | ⟨0, _⟩ => ⟨(i 0).val, (i 0).isLt⟩
  | ⟨1, _⟩ => ⟨(i 2).val, (i 2).isLt⟩
  | ⟨2, _⟩ => ⟨k.val, k.isLt⟩

/-- The per-sequence product of two row families over their 512 columns, into the zero accumulator. -/
theorem matmulS_apply (l r : FVec Ideal S32x64x512 .bf16) (i : S32x64x64.Idx) :
    matmul dot_S32x64x512_S32x64x512_S32x64x64_2_2_1_1_0_0 none l r (constant (F := Ideal) S32x64x64 .f32 0x00000000#32) i
      = ∑ k : Fin 512, l (lidxS i k) * r (ridxS i k) := by
  refine (Ideal.matmul_constant_zero_apply dot_S32x64x512_S32x64x512_S32x64x64_2_2_1_1_0_0 none l r i).trans ?_
  rw [← Equiv.sum_comp (ValueIdx.contrEquiv1 dot_S32x64x512_S32x64x512_S32x64x64_2_2_1_1_0_0 512 rfl rfl).symm]
  refine Finset.sum_congr rfl fun k _ => ?_
  have hk := ValueIdx.contrEquiv1_symm_val dot_S32x64x512_S32x64x512_S32x64x64_2_2_1_1_0_0 512 rfl rfl k
  have el : dot_S32x64x512_S32x64x512_S32x64x64_2_2_1_1_0_0.lhsIdx i ((ValueIdx.contrEquiv1 dot_S32x64x512_S32x64x512_S32x64x64_2_2_1_1_0_0 512 rfl rfl).symm k) = lidxS i k := funext fun a => Fin.ext (by
    match a with
    | ⟨0, _⟩ => exact lhsS_0 _ _
    | ⟨1, _⟩ => exact lhsS_1 _ _
    | ⟨2, _⟩ => exact (lhsS_2 _ _).trans hk)
  have er : dot_S32x64x512_S32x64x512_S32x64x64_2_2_1_1_0_0.rhsIdx i ((ValueIdx.contrEquiv1 dot_S32x64x512_S32x64x512_S32x64x64_2_2_1_1_0_0 512 rfl rfl).symm k) = ridxS i k := funext fun a => Fin.ext (by
    match a with
    | ⟨0, _⟩ => exact rhsS_0 _ _
    | ⟨1, _⟩ => exact rhsS_1 _ _
    | ⟨2, _⟩ => exact (rhsS_2 _ _).trans hk)
  rw [el, er]

/-! ## The output `[32, 64, 64] × [32, 64, 512] → [32, 64, 512]`, one product per sequence -/

theorem lhsO_0 (i : S32x64x512.Idx) (q : dot_S32x64x64_S32x64x512_S32x64x512_2_1_1_2_0_0.contr.Idx) :
    (dot_S32x64x64_S32x64x512_S32x64x512_2_1_1_2_0_0.lhsIdx i q 0).val = (i 0).val := by
  unfold DotDims.lhsIdx
  rw [dif_pos (show (0 : Fin S32x64x64.rank) ∈ dot_S32x64x64_S32x64x512_S32x64x512_2_1_1_2_0_0.lhsBatch by decide)]
  rfl
theorem lhsO_1 (i : S32x64x512.Idx) (q : dot_S32x64x64_S32x64x512_S32x64x512_2_1_1_2_0_0.contr.Idx) :
    (dot_S32x64x64_S32x64x512_S32x64x512_2_1_1_2_0_0.lhsIdx i q 1).val = (i 1).val := by
  unfold DotDims.lhsIdx
  rw [dif_neg (show ¬(1 : Fin S32x64x64.rank) ∈ dot_S32x64x64_S32x64x512_S32x64x512_2_1_1_2_0_0.lhsBatch by decide), dif_pos (show (1 : Fin S32x64x64.rank) ∈ dot_S32x64x64_S32x64x512_S32x64x512_2_1_1_2_0_0.lhsNonContracting by decide)]
  rfl
theorem lhsO_2 (i : S32x64x512.Idx) (q : dot_S32x64x64_S32x64x512_S32x64x512_2_1_1_2_0_0.contr.Idx) :
    (dot_S32x64x64_S32x64x512_S32x64x512_2_1_1_2_0_0.lhsIdx i q 2).val = (q ⟨0, by decide⟩).val :=
  dot_S32x64x64_S32x64x512_S32x64x512_2_1_1_2_0_0.lhsIdx_val_of_single rfl i q
theorem rhsO_0 (i : S32x64x512.Idx) (q : dot_S32x64x64_S32x64x512_S32x64x512_2_1_1_2_0_0.contr.Idx) :
    (dot_S32x64x64_S32x64x512_S32x64x512_2_1_1_2_0_0.rhsIdx i q 0).val = (i 0).val := by
  unfold DotDims.rhsIdx
  rw [dif_pos (show (0 : Fin S32x64x512.rank) ∈ dot_S32x64x64_S32x64x512_S32x64x512_2_1_1_2_0_0.rhsBatch by decide)]
  rfl
theorem rhsO_1 (i : S32x64x512.Idx) (q : dot_S32x64x64_S32x64x512_S32x64x512_2_1_1_2_0_0.contr.Idx) :
    (dot_S32x64x64_S32x64x512_S32x64x512_2_1_1_2_0_0.rhsIdx i q 1).val = (q ⟨0, by decide⟩).val :=
  dot_S32x64x64_S32x64x512_S32x64x512_2_1_1_2_0_0.rhsIdx_val_of_single rfl i q
theorem rhsO_2 (i : S32x64x512.Idx) (q : dot_S32x64x64_S32x64x512_S32x64x512_2_1_1_2_0_0.contr.Idx) :
    (dot_S32x64x64_S32x64x512_S32x64x512_2_1_1_2_0_0.rhsIdx i q 2).val = (i 2).val := by
  unfold DotDims.rhsIdx
  rw [dif_neg (show ¬(2 : Fin S32x64x512.rank) ∈ dot_S32x64x64_S32x64x512_S32x64x512_2_1_1_2_0_0.rhsBatch by decide), dif_pos (show (2 : Fin S32x64x512.rank) ∈ dot_S32x64x64_S32x64x512_S32x64x512_2_1_1_2_0_0.rhsNonContracting by decide)]
  rfl

/-- The scaled score of query `(i 0, i 1)` against the key at the summation index. -/
abbrev lidxO (i : S32x64x512.Idx) (k : Fin 64) : S32x64x64.Idx := fun a => match a with
  | ⟨0, _⟩ => ⟨(i 0).val, (i 0).isLt⟩
  | ⟨1, _⟩ => ⟨(i 1).val, (i 1).isLt⟩
  | ⟨2, _⟩ => ⟨k.val, k.isLt⟩
/-- The projected row at the summation index, column `i 2`. -/
abbrev ridxO (i : S32x64x512.Idx) (k : Fin 64) : S32x64x512.Idx := fun a => match a with
  | ⟨0, _⟩ => ⟨(i 0).val, (i 0).isLt⟩
  | ⟨1, _⟩ => ⟨k.val, k.isLt⟩
  | ⟨2, _⟩ => ⟨(i 2).val, (i 2).isLt⟩

/-- The per-sequence product of the scaled scores with the projected rows over the 64 key positions. -/
theorem matmulO_apply (l : FVec Ideal S32x64x64 .bf16) (r : FVec Ideal S32x64x512 .bf16) (i : S32x64x512.Idx) :
    matmul dot_S32x64x64_S32x64x512_S32x64x512_2_1_1_2_0_0 none l r (constant (F := Ideal) S32x64x512 .f32 0x00000000#32) i
      = ∑ k : Fin 64, l (lidxO i k) * r (ridxO i k) := by
  refine (Ideal.matmul_constant_zero_apply dot_S32x64x64_S32x64x512_S32x64x512_2_1_1_2_0_0 none l r i).trans ?_
  rw [← Equiv.sum_comp (ValueIdx.contrEquiv1 dot_S32x64x64_S32x64x512_S32x64x512_2_1_1_2_0_0 64 rfl rfl).symm]
  refine Finset.sum_congr rfl fun k _ => ?_
  have hk := ValueIdx.contrEquiv1_symm_val dot_S32x64x64_S32x64x512_S32x64x512_2_1_1_2_0_0 64 rfl rfl k
  have el : dot_S32x64x64_S32x64x512_S32x64x512_2_1_1_2_0_0.lhsIdx i ((ValueIdx.contrEquiv1 dot_S32x64x64_S32x64x512_S32x64x512_2_1_1_2_0_0 64 rfl rfl).symm k) = lidxO i k := funext fun a => Fin.ext (by
    match a with
    | ⟨0, _⟩ => exact lhsO_0 _ _
    | ⟨1, _⟩ => exact lhsO_1 _ _
    | ⟨2, _⟩ => exact (lhsO_2 _ _).trans hk)
  have er : dot_S32x64x64_S32x64x512_S32x64x512_2_1_1_2_0_0.rhsIdx i ((ValueIdx.contrEquiv1 dot_S32x64x64_S32x64x512_S32x64x512_2_1_1_2_0_0 64 rfl rfl).symm k) = ridxO i k := funext fun a => Fin.ext (by
    match a with
    | ⟨0, _⟩ => exact rhsO_0 _ _
    | ⟨1, _⟩ => exact (rhsO_1 _ _).trans hk
    | ⟨2, _⟩ => exact rhsO_2 _ _)
  rw [el, er]

end Cert.KernelIdeal.BodyValue

end
-- ==== Proof.BodyValue.lean ====
/-
  What the kernel's body stores, read at one index: `SelfAttention.attend` of one sequence of its blocks.

  At a grid point the body holds 32 sequences `v0 : [32, 64, 512]`, their mask rows `v9 : [32, 64]` and the whole weight
  `v3 : [512, 512]`. It flattens the sequences to 2048 rows, multiplies by the weight and folds the rows back: row
  `b·64 + s` of the flat product is row `s` of sequence `b`, both sitting at the same row-major position, so the folded
  product is each sequence's own projection (`projected_apply`). The mask row is given a unit axis and repeated along
  the QUERY axis, so at `(b, j, f)` it reads the mask of key `f` (`maskAlongKeys_apply`). The scaled scores are then, per
  sequence, the products of two projected rows over their 512 columns times that mask (`maskedScores_apply`), and the
  stored value is their product with the projection over the 64 key positions (`payload_apply`). The narrowing casts
  between the products are the identity at the ideal values.
-/
import proofs.«153391_j11879879543805_2_alg».proof.Proof.BodyProducts

noncomputable section

namespace Cert.KernelIdeal.BodyValue

open Cert.KernelIdeal Cert.KernelIdeal.Gen Idealize.ShloMosaic Idealize.ShloMosaic.ValueIdx Cert.SelfAttention

/-- The body's projection of its block: flatten, multiply by the weight into zero, fold back, narrow. -/
def projected (v0 : FVec Ideal S32x64x512 .f32) (v3 : FVec Ideal S512x512 .bf16) : FVec Ideal S32x64x512 .bf16 :=
  truncf .bf16 (shapeCast S32x64x512 (matmul dot_S2048x512_S512x512_S2048x512_1_0_0_1_n_n none
      (shapeCast S2048x512 (truncf .bf16 v0 bitsLt_bf16_f32) shapeCasts_S32x64x512_S2048x512)
      (shapeCast S512x512 v3 shapeCasts_S512x512_S512x512) (constant (F := Ideal) S2048x512 .f32 0x00000000#32))
    shapeCasts_S2048x512_S32x64x512) bitsLt_bf16_f32

/-- The mask block with a unit query axis, repeated along it. -/
def maskAlongKeys (v9 : FVec Ideal S32x64 .f32) : FVec Ideal S32x64x64 .f32 :=
  broadcastTo S32x64x64 (shapeCast S32x1x64 v9 shapeCasts_S32x64_S32x1x64) broadcasts_S32x1x64_S32x64x64

/-- The scores of a row family against itself, scaled by the mask, narrowed. -/
def maskedScores (p : FVec Ideal S32x64x512 .bf16) (v9 : FVec Ideal S32x64 .f32) : FVec Ideal S32x64x64 .bf16 :=
  truncf .bf16 (mulf (matmul dot_S32x64x512_S32x64x512_S32x64x64_2_2_1_1_0_0 none p p (constant (F := Ideal) S32x64x64 .f32 0x00000000#32)) (maskAlongKeys v9)) bitsLt_bf16_f32

/-- The stored value is the scaled scores times the projection: the printed sequence of operations, regrouped. -/
theorem payload_eq (v0 : FVec Ideal S32x64x512 .f32) (v3 : FVec Ideal S512x512 .bf16) (v9 : FVec Ideal S32x64 .f32) :
    k0_pay1 (F := Ideal) v0 v3 v9
      = matmul dot_S32x64x64_S32x64x512_S32x64x512_2_1_1_2_0_0 none (maskedScores (projected v0 v3) v9) (projected v0 v3) (constant (F := Ideal) S32x64x512 .f32 0x00000000#32) := rfl

/-- Row `s` of sequence `b` of the folded product is that sequence's projection: the flat row `b·64 + s` is the same
    row-major position. -/
theorem projected_apply (v0 : FVec Ideal S32x64x512 .f32) (v3 : FVec Ideal S512x512 .bf16) (b : Fin 32) (s : Fin 64) (e : Fin 512) :
    projected v0 v3 (ix3 b s e) = proj (fun s k => v0 (ix3 b s k)) (fun k e => v3 (ix2 k e)) s e := by
  have hr : b.val * 64 + s.val < 2048 := by have := b.isLt; have := s.isLt; omega
  unfold projected proj
  rw [truncf_apply,
    shapeCast_apply _ shapeCasts_S2048x512_S32x64x512 (ix3 b s e) (ix2 (⟨b.val * 64 + s.val, hr⟩ : Fin 2048) e)
      (by rw [Shape.rowMajor_val_two, Shape.rowMajor_val_three]; rfl),
    matmulP_apply]
  refine Finset.sum_congr rfl fun k _ => ?_
  have el : lidxP (ix2 (⟨b.val * 64 + s.val, hr⟩ : Fin 2048) e) k = ix2 (⟨b.val * 64 + s.val, hr⟩ : Fin 2048) k :=
    funext fun a => by match a with | ⟨0, _⟩ => rfl | ⟨1, _⟩ => rfl
  have er : ridxP (ix2 (⟨b.val * 64 + s.val, hr⟩ : Fin 2048) e) k = ix2 k e :=
    funext fun a => by match a with | ⟨0, _⟩ => rfl | ⟨1, _⟩ => rfl
  rw [el, er,
    shapeCast_apply _ shapeCasts_S32x64x512_S2048x512 (ix2 (⟨b.val * 64 + s.val, hr⟩ : Fin 2048) k) (ix3 b s k)
      (by rw [Shape.rowMajor_val_two, Shape.rowMajor_val_three]; rfl),
    shapeCast_self]
  rfl

/-- At `(b, j, f)` the repeated mask is the mask of key `f` of sequence `b`, whatever the query `j`. -/
theorem maskAlongKeys_apply (v9 : FVec Ideal S32x64 .f32) (b : Fin 32) (j f : Fin 64) :
    maskAlongKeys v9 (ix3 b j f) = v9 (ix2 b f) := by
  unfold maskAlongKeys
  rw [broadcastTo_apply _ broadcasts_S32x1x64_S32x64x64 (ix3 b j f) (ix3 b (0 : Fin 1) f) (fun a => match a with
      | ⟨0, _⟩ => by show b.val = if (32 : Nat) = 1 then 0 else b.val; rw [if_neg (by decide)]
      | ⟨1, _⟩ => by show 0 = if (1 : Nat) = 1 then 0 else j.val; rw [if_pos rfl]
      | ⟨2, _⟩ => by show f.val = if (64 : Nat) = 1 then 0 else f.val; rw [if_neg (by decide)]),
    shapeCast_apply _ shapeCasts_S32x64_S32x1x64 _ (ix2 b f)
      (by rw [Shape.rowMajor_val_two, Shape.rowMajor_val_three]; show b.val * 64 + f.val = (b.val * 1 + 0) * 64 + f.val; omega)]

/-- The scaled score of query `j` against key `f` in sequence `b`: the two rows' inner product times the mask at `f`. -/
theorem maskedScores_apply (p : FVec Ideal S32x64x512 .bf16) (v9 : FVec Ideal S32x64 .f32) (b : Fin 32) (j f : Fin 64) :
    maskedScores p v9 (ix3 b j f) = (∑ e : Fin 512, p (ix3 b j e) * p (ix3 b f e)) * v9 (ix2 b f) := by
  unfold maskedScores
  rw [truncf_apply, mulf_apply, matmulS_apply, maskAlongKeys_apply]
  have el : ∀ e : Fin 512, lidxS (ix3 b j f) e = ix3 b j e :=
    fun e => funext fun a => by match a with | ⟨0, _⟩ => rfl | ⟨1, _⟩ => rfl | ⟨2, _⟩ => rfl
  have er : ∀ e : Fin 512, ridxS (ix3 b j f) e = ix3 b f e :=
    fun e => funext fun a => by match a with | ⟨0, _⟩ => rfl | ⟨1, _⟩ => rfl | ⟨2, _⟩ => rfl
  simp only [el, er]

/-- THE BODY'S VALUE at `(b, j, d)`: one sequence's output, from that sequence's rows of the loaded blocks. -/
theorem payload_apply (v0 : FVec Ideal S32x64x512 .f32) (v3 : FVec Ideal S512x512 .bf16) (v9 : FVec Ideal S32x64 .f32)
    (b : Fin 32) (j : Fin 64) (d : Fin 512) :
    k0_pay1 (F := Ideal) v0 v3 v9 (ix3 b j d)
      = attend (fun s k => v0 (ix3 b s k)) (fun f => v9 (ix2 b f)) (fun k e => v3 (ix2 k e)) j d := by
  rw [payload_eq, matmulO_apply]
  unfold attend
  refine Finset.sum_congr rfl fun f _ => ?_
  have e1 : lidxO (ix3 b j d) f = ix3 b j f := funext fun a => by match a with | ⟨0, _⟩ => rfl | ⟨1, _⟩ => rfl | ⟨2, _⟩ => rfl
  have e2 : ridxO (ix3 b j d) f = ix3 b f d := funext fun a => by match a with | ⟨0, _⟩ => rfl | ⟨1, _⟩ => rfl | ⟨2, _⟩ => rfl
  rw [e1, e2, maskedScores_apply, projected_apply]
  simp only [projected_apply]

end Cert.KernelIdeal.BodyValue

end
-- ==== Proof.ArrayValue.lean ====
/-
  From the kernel's blocks to its whole result array.

  The grid has 32 points; point `t` stages sequences `32·t … 32·t + 31` of `x` and of the mask (block index `(t, 0, 0)`
  and `(t, 0)`), the whole weight (block index `(0, 0)`), and writes back the same 32 sequences of the result. An
  index `(b', s, k)` inside a block sits at `(32·t + b', s, k)` of its array, so the three blocks at `t` are the argument
  arrays read at those positions, and by the body's value (`BodyValue.payload_apply`) what point `t` writes back is block
  `t` of `SelfAttention.wholeArray` of the argument arrays (`flushed_eq`). The weight the region finds is the host's
  narrowing of the argument, the identity at the ideal values (`weight_eq`). Sequence `b` lies in the block of point
  `b / 32`, so the 32 blocks cover the array (`cover`), and the array ends holding `wholeArray` (`final`, `run`).
-/
import proofs.«153391_j11879879543805_2_alg».proof.Proof.Gen.KernelIdeal.Value
import proofs.«153391_j11879879543805_2_alg».proof.Proof.BodyValue
import Idealize.ShloMosaic.Lib.StableHlo.Run

noncomputable section

namespace Cert.KernelIdeal.ArrayValue

open Cert.KernelIdeal Cert.KernelIdeal.Gen Idealize.ShloMosaic Idealize.ShloMosaic.TcCoe Idealize.SL.Sem
open Idealize.ShloMosaic.ValueIdx Cert.SelfAttention
open Idealize.ShloMosaic.Pipeline (Dat)

variable (m : (ℓ : Loc nD τ sig) → Buf (Elt Ideal) ℓ) (ρ : Dev nD → PrngReg)

theorem zero3 : (![0, 0, 0] : Fin 3 → Nat) = fun _ => 0 := funext fun a => by fin_cases a <;> rfl
theorem zero2 : (![0, 0] : Fin 2 → Nat) = fun _ => 0 := funext fun a => by fin_cases a <;> rfl

/-- The block indices over the grid: `x`, the mask and the result move with the point along the sequence axis only;
    the weight's block never moves. -/
theorem block_indices : ∀ t : Fin cfg0.N,
    win0_0.index t (0 : Fin 3) = t.val ∧ win0_0.index t (1 : Fin 3) = 0 ∧ win0_0.index t (2 : Fin 3) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 3) = t.val ∧ win0_3.index t (1 : Fin 3) = 0 ∧ win0_3.index t (2 : Fin 3) = 0 :=
  (by decide +kernel : ∀ t : Fin grid0.N, _)

/-- The weight as the region finds it is the argument: the host's narrowing to bf16 changes no ideal value. -/
theorem weight_eq (c : Dev nD) :
    (V m c main_v0 : S512x512.Idx → EReal) = (m ((c : Thread nD τ).loc main_arg2) : S512x512.Idx → EReal) := by
  dsimp only [Gen.V, Gen.hostOps0]
  after_results
  rfl

/-- ONE POINT, over plain vectors: if three blocks are the arrays `A0`, `A1`, `A2` read at sequences `32·T + b'` (the
    weight whole), the body's value at `(b', j, d)` is `wholeArray` of the arrays at `(32·T + b', j, d)`. -/
theorem point_value (A0 : S1024x64x512.Idx → EReal) (A1 : S1024x64.Idx → EReal) (A2 : S512x512.Idx → EReal)
    (x0 : FVec Ideal S32x64x512 .f32) (x1 : FVec Ideal S32x64 .f32) (x2 : FVec Ideal S512x512 .bf16) (T : Nat)
    (h0 : ∀ (b : Fin 32) (s : Fin 64) (k : Fin 512) (g : Fin 1024), g.val = T * 32 + b.val → x0 (ix3 b s k) = A0 (ix3 g s k))
    (h1 : ∀ (b : Fin 32) (f : Fin 64) (g : Fin 1024), g.val = T * 32 + b.val → x1 (ix2 b f) = A1 (ix2 g f))
    (h2 : ∀ (k e : Fin 512), x2 (ix2 k e) = A2 (ix2 k e))
    (b : Fin 32) (j : Fin 64) (d : Fin 512) (g : Fin 1024) (hg : g.val = T * 32 + b.val) :
    k0_pay1 (F := Ideal) x0 x2 x1 (ix3 b j d) = wholeArray A0 A1 A2 (ix3 g j d) := by
  rw [BodyValue.payload_apply]
  show _ = attend (fun s k => A0 (ix3 g s k)) (fun f => A1 (ix2 g f)) (fun k e => A2 (ix2 k e)) j d
  have eX : (fun (s : Fin 64) (k : Fin 512) => x0 (ix3 b s k)) = fun s k => A0 (ix3 g s k) :=
    funext fun s => funext fun k => h0 b s k g hg
  have eM : (fun (f : Fin 64) => x1 (ix2 b f)) = fun f => A1 (ix2 g f) := funext fun f => h1 b f g hg
  have eW : (fun (k e : Fin 512) => x2 (ix2 k e)) = fun k e => A2 (ix2 k e) := funext fun k => funext fun e => h2 k e
  rw [eX, eM, eW]

/-- WHAT POINT `t` WRITES BACK is block `t` of `wholeArray` of the argument arrays. -/
theorem flushed_eq (c : Dev nD) (t : Fin cfg0.N) :
    (dats m 0 c).flushed 3 t = ((cfg0.win 3).blk t).view.read (Elt Ideal)
      (wholeArray (m ((c : Thread nD τ).loc main_arg0)) (m ((c : Thread nD τ).loc main_arg1)) (m ((c : Thread nD τ).loc main_arg2))) := by
  rw [Value.flushed3]
  unfold out0_3
  rw [View.canon_unit_zero zero3]
  simp only [View.ld_unit_zero (S := S32x64x512) zero3, View.ld_unit_zero (S := S512x512) zero2, View.ld_unit_zero (S := S32x64) zero2]
  obtain ⟨a00, a01, a02, a10, a11, a20, a21, a30, a31, a32⟩ := block_indices t
  have ht : t.val < 32 := lt_of_lt_of_eq t.isLt N_0
  refine funext fun (y : S32x64x512.Idx) => ?_
  have hy0 : (y 0).val < 32 := (y 0).isLt
  have hg : t.val * 32 + (y 0).val < 1024 := by omega
  -- the three blocks at `t` are the argument arrays read at sequences `32·t + b'`
  have h0 : ∀ (b : Fin 32) (s : Fin 64) (k : Fin 512) (g : Fin 1024), g.val = t.val * 32 + b.val →
      iblk m c 0 t (ix3 b s k) = m ((c : Thread nD τ).loc main_arg0) (ix3 g s k) := by
    intro b s k g hgb
    show V m c main_arg0 (((cfg0.win 0).blk t).view.emb (ix3 b s k)) = _
    rw [V_main_arg0]
    refine congrArg _ (funext fun a => Fin.ext ?_)
    match a with
    | ⟨0, _⟩ => show win0_0.index t (0 : Fin 3) * 32 + 1 * b.val = g.val; omega
    | ⟨1, _⟩ => show win0_0.index t (1 : Fin 3) * 64 + 1 * s.val = s.val; omega
    | ⟨2, _⟩ => show win0_0.index t (2 : Fin 3) * 512 + 1 * k.val = k.val; omega
  have h1 : ∀ (b : Fin 32) (f : Fin 64) (g : Fin 1024), g.val = t.val * 32 + b.val →
      iblk m c 1 t (ix2 b f) = m ((c : Thread nD τ).loc main_arg1) (ix2 g f) := by
    intro b f g hgb
    show V m c main_arg1 (((cfg0.win 1).blk t).view.emb (ix2 b f)) = _
    rw [V_main_arg1]
    refine congrArg _ (funext fun a => Fin.ext ?_)
    match a with
    | ⟨0, _⟩ => show win0_1.index t (0 : Fin 2) * 32 + 1 * b.val = g.val; omega
    | ⟨1, _⟩ => show win0_1.index t (1 : Fin 2) * 64 + 1 * f.val = f.val; omega
  have h2 : ∀ (k e : Fin 512), iblk m c 2 t (ix2 k e) = (m ((c : Thread nD τ).loc main_arg2) : S512x512.Idx → EReal) (ix2 k e) := by
    intro k e
    show (V m c main_v0 : S512x512.Idx → EReal) (((cfg0.win 2).blk t).view.emb (ix2 k e)) = _
    rw [weight_eq]
    refine congrArg _ (funext fun a => Fin.ext ?_)
    match a with
    | ⟨0, _⟩ => show win0_2.index t (0 : Fin 2) * 512 + 1 * k.val = k.val; omega
    | ⟨1, _⟩ => show win0_2.index t (1 : Fin 2) * 512 + 1 * e.val = e.val; omega
  -- where the block's index `y` sits in the result array
  have hemb : ((cfg0.win 3).blk t).view.emb y = ix3 (⟨t.val * 32 + (y 0).val, hg⟩ : Fin 1024) (y 1) (y 2) := by
    refine funext fun a => Fin.ext ?_
    match a with
    | ⟨0, _⟩ => show win0_3.index t (0 : Fin 3) * 32 + 1 * (y 0).val = t.val * 32 + (y 0).val; omega
    | ⟨1, _⟩ => show win0_3.index t (1 : Fin 3) * 64 + 1 * (y 1).val = (y 1).val; omega
    | ⟨2, _⟩ => show win0_3.index t (2 : Fin 3) * 512 + 1 * (y 2).val = (y 2).val; omega
  have key := point_value (m ((c : Thread nD τ).loc main_arg0)) (m ((c : Thread nD τ).loc main_arg1)) (m ((c : Thread nD τ).loc main_arg2))
    (iblk m c 0 t) (iblk m c 1 t) (iblk m c 2 t) t.val h0 h1 h2 (y 0) (y 1) (y 2) ⟨t.val * 32 + (y 0).val, hg⟩ rfl
  exact (congrArg (k0_pay1 (F := Ideal) (iblk m c 0 t) (iblk m c 2 t) (iblk m c 1 t)) (eq_ix3 y)).trans
    (key.trans (congrArg (wholeArray (m ((c : Thread nD τ).loc main_arg0)) (m ((c : Thread nD τ).loc main_arg1)) (m ((c : Thread nD τ).loc main_arg2))) hemb.symm))

/-- An index of the result array is in point `t`'s block iff each coordinate is in the block's range on its axis. -/
theorem mem_blk (t : Fin cfg0.N) (i : S1024x64x512.Idx) :
    i ∈ ((cfg0.win 3).blk t).view.set ↔ ∀ a : Fin 3, win0_3.index t a * S32x64x512.size a ≤ (i a).val ∧ (i a).val < win0_3.index t a * S32x64x512.size a + S32x64x512.size a := by
  show i ∈ ((View.whole main_v1).slice (win0_3.rect t)).set ↔ _
  rw [View.set_slice_whole, Rect.mem_set_unit]
  exact Iff.rfl

/-- Sequence `b` is written back by point `b / 32`: the 32 blocks cover the result array. -/
theorem cover (i : S1024x64x512.Idx) :
    ∃ t : Fin cfg0.N, (cfg0.win 3).flush t = true ∧ i ∈ ((cfg0.win 3).blk t).view.set := by
  have hi0 : (i 0).val < 1024 := (i 0).isLt
  have hi1 : (i 1).val < 64 := (i 1).isLt
  have hi2 : (i 2).val < 512 := (i 2).isLt
  have ht : (i 0).val / 32 < cfg0.N := lt_of_lt_of_eq (by omega : (i 0).val / 32 < 32) N_0.symm
  obtain ⟨-, -, -, -, -, -, -, a30, a31, a32⟩ := block_indices ⟨(i 0).val / 32, ht⟩
  have b0 : win0_3.index ⟨(i 0).val / 32, ht⟩ (0 : Fin 3) = (i 0).val / 32 := a30
  refine ⟨⟨(i 0).val / 32, ht⟩, flush0_3 _, ?_⟩
  rw [mem_blk]
  intro a
  match a with
  | ⟨0, _⟩ => show win0_3.index ⟨(i 0).val / 32, ht⟩ (0 : Fin 3) * 32 ≤ (i 0).val ∧ (i 0).val < win0_3.index ⟨(i 0).val / 32, ht⟩ (0 : Fin 3) * 32 + 32; omega
  | ⟨1, _⟩ => show win0_3.index ⟨(i 0).val / 32, ht⟩ (1 : Fin 3) * 64 ≤ (i 1).val ∧ (i 1).val < win0_3.index ⟨(i 0).val / 32, ht⟩ (1 : Fin 3) * 64 + 64; omega
  | ⟨2, _⟩ => show win0_3.index ⟨(i 0).val / 32, ht⟩ (2 : Fin 3) * 512 ≤ (i 2).val ∧ (i 2).val < win0_3.index ⟨(i 0).val / 32, ht⟩ (2 : Fin 3) * 512 + 512; omega

/-- THE RESULT ARRAY after the run is `wholeArray` of the argument arrays. -/
theorem final (c : Dev nD) : (dats m 0 c).arrAt 3 cfg0.N
    = wholeArray (m ((c : Thread nD τ).loc main_arg0)) (m ((c : Thread nD τ).loc main_arg1)) (m ((c : Thread nD τ).loc main_arg2)) :=
  (dats m 0 c).arrAt_eq_of_cover 3 _ (fun t _ => flushed_eq m c t) cover

/-- The kernel's run: every weakly fair execution ends with the result at `wholeArray` of the arguments, the arguments
    unchanged. -/
theorem run : θ_run defs (onTc (τ := τ) (main (F := Ideal))) ⟨m, fun _ => 0, ρ⟩ fun r => ∀ c : Dev nD,
      r.2.mem ((c : Thread nD τ).loc main_v1)
        = wholeArray (m ((c : Thread nD τ).loc main_arg0)) (m ((c : Thread nD τ).loc main_arg1)) (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final m c), (h c).2⟩) (Value.run_blocks m ρ)

end Cert.KernelIdeal.ArrayValue

end
-- ==== Proof.lean ====
/-
  The kernel and its reference compute one function, `SelfAttention.wholeArray`.

  Both take `x : [1024, 64, 512]`, a mask `[1024, 64]` and a weight `W : [512, 512]` and return, for every sequence `b`,

      out[b, j, d] = ∑ f, ((∑ e, P[b, j, e] · P[b, f, e]) · mask[b, f]) · P[b, f, d],     P[b] = x[b] · W.

  The reference does it with three whole-array contractions (`ReferenceValue.result_eq`). The kernel does it 32 sequences
  at a time: each grid point flattens its 32 sequences into one 2048-row product with `W`, folds the rows back, and
  forms the scores and the output sequence by sequence (`BodyValue.payload_apply`); the 32 blocks it writes back tile
  the result (`ArrayValue.final`). Its narrowing casts to bf16 — of `W` on the host, of the intermediate products in the
  body — are the identity on the extended reals, and its products accumulate into zero. Both sides are therefore the
  same nest of sums and products, written in the same order, at every index: the comparison uses no law of
  arithmetic, so the finiteness of the inputs is never called on.

  The three frames are the generated ones (the reference's is its generated run with the result forgotten), and the
  idealization rewrote nothing, so it preserves the kernel trivially.
-/
import proofs.«153391_j11879879543805_2_alg».proof.Defs
import proofs.«153391_j11879879543805_2_alg».proof.Proof.Gen.Kernel
import proofs.«153391_j11879879543805_2_alg».proof.Proof.Gen.Kernel.Frame
import proofs.«153391_j11879879543805_2_alg».proof.Proof.Gen.KernelIdeal
import proofs.«153391_j11879879543805_2_alg».proof.Proof.Gen.KernelIdeal.Frame
import proofs.«153391_j11879879543805_2_alg».proof.Proof.Gen.KernelIdeal.Value
import proofs.«153391_j11879879543805_2_alg».proof.Proof.Gen.ReferenceIdeal
import proofs.«153391_j11879879543805_2_alg».proof.Proof.Gen.ReferenceIdeal.Run
import proofs.«153391_j11879879543805_2_alg».proof.Proof.Gen.ReferenceIdeal.Read
import proofs.«153391_j11879879543805_2_alg».proof.Proof.Gen.Pre_finite_inputs
import proofs.«153391_j11879879543805_2_alg».proof.Proof.SelfAttention
import proofs.«153391_j11879879543805_2_alg».proof.Proof.ReferenceValue
import proofs.«153391_j11879879543805_2_alg».proof.Proof.ArrayValue

noncomputable section

namespace Cert.Proof

open Idealize.ShloMosaic Idealize.SL.Sem

/-- The printed kernel runs and leaves its arguments alone. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- So does the reference: its run, with what it says of the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories agreeing on the three arguments, the kernel's result array and the reference's are both
    `wholeArray` of those arguments. -/
theorem algebraic : Cert.algebraic_KernelIdeal_ReferenceIdeal := by
  intro m ρ m' ρ' _ hagree
  refine ⟨_, Cert.KernelIdeal.ArrayValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v5_eq, Cert.ReferenceIdeal.RefValue.result_eq,
    (hagree c).1, (hagree c).2.1, (hagree c).2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
